-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096 .f32) (main_arg5 : FVec F S4096x1024 .f32) (main_arg6 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024 .f32) (main_arg2 : FVec F S1024 .f32) (main_arg3 : FVec F S1024x4096 .f32) (main_arg4 : FVec F S4096 .f32) (main_arg5 : FVec F S4096x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S4x2048x1024 : Shape := ⟨3, ![4, 2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8192x1024 : Shape := ⟨2, ![8192, 1024]⟩
abbrev S1x1024 : Shape := ⟨2, ![1, 1024]⟩
abbrev S1x4096 : Shape := ⟨2, ![1, 4096]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 16
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x4096, .f32⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S8192x1024, .f32⟩
  | .hbm, ⟨15, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x2048x1024_S8192x1024 : S4x2048x1024.ShapeCasts S8192x1024
  shapeCasts_S1024_S1x1024 : S1024.ShapeCasts S1x1024
  shapeCasts_S4096_S1x4096 : S4096.ShapeCasts S1x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  inb_S4096x1024_S1024x1024_0_0 : ∀ a, (![0, 0] : Fin 2 → Nat) a + S1024x1024.size a ≤ S4096x1024.size a
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S4096x1024_S1024x1024_1024_0 : ∀ a, (![1024, 0] : Fin 2 → Nat) a + S1024x1024.size a ≤ S4096x1024.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  inb_S4096x1024_S1024x1024_2048_0 : ∀ a, (![2048, 0] : Fin 2 → Nat) a + S1024x1024.size a ≤ S4096x1024.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  inb_S4096x1024_S1024x1024_3072_0 : ∀ a, (![3072, 0] : Fin 2 → Nat) a + S1024x1024.size a ≤ S4096x1024.size a
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S4x2048x4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.Spec.lean ====
/-
  The feed-forward block as a function of one row, on the extended reals.

  A row `x` of 1024 entries is normalised (its mean and its mean squared deviation, each a sum divided by 1024; the
  deviation times the reciprocal square root of the variance plus a small constant; then scaled and shifted entry by
  entry), multiplied into 4096 hidden units with a bias and clipped below at zero, and multiplied back into 1024
  outputs with a bias.  The constants are kept as the words both programs print.  Last, the one law the two programs
  differ by: a sum over 4096 terms is the sum, from zero, of its four consecutive runs of 1024.
-/
import Idealize.ShloMosaic.PureOps.Ideal.Laws

noncomputable section

namespace Cert.FFN

open Idealize.ShloMosaic

/-- The row length, 1024, as the printed word. -/
abbrev cN : EReal := Ideal.ofBits .f32 0x44800000#32
/-- The small constant added to the variance, as the printed word. -/
abbrev cEps : EReal := Ideal.ofBits .f32 0x3727C5AC#32
/-- The zero the hidden units are clipped at, as the printed word. -/
abbrev cZ : EReal := Ideal.ofBits .f32 0x00000000#32

/-- The mean of a row. -/
def mean (x : Fin 1024 → EReal) : EReal := Ideal.div (∑ k : Fin 1024, x k) cN

/-- The mean squared deviation of a row. -/
def var (x : Fin 1024 → EReal) : EReal := Ideal.div (∑ k : Fin 1024, (x k - mean x) * (x k - mean x)) cN

/-- The normalised row, scaled by `lw` and shifted by `lb`. -/
def lnorm (x lw lb : Fin 1024 → EReal) (d : Fin 1024) : EReal :=
  (x d - mean x) * Ideal.rsqrt (var x + cEps) * lw d + lb d

/-- A layer of `n` hidden units: the row times column `f` of the weights, plus the bias, clipped below at zero. -/
def hid {n : ℕ} (h : Fin 1024 → EReal) (w : Fin 1024 → Fin n → EReal) (b : Fin n → EReal) (f : Fin n) : EReal :=
  max ((∑ j : Fin 1024, h j * w j f) + b f) cZ

/-- The output layer: the 4096 hidden units times column `d` of the weights, plus the bias. -/
def out (g : Fin 4096 → EReal) (w : Fin 4096 → Fin 1024 → EReal) (b : Fin 1024 → EReal) (d : Fin 1024) : EReal :=
  (∑ f : Fin 4096, g f * w f d) + b d

/-- The whole block on one row. -/
def ffn (x lw lb : Fin 1024 → EReal) (w1 : Fin 1024 → Fin 4096 → EReal) (b1 : Fin 4096 → EReal)
    (w2 : Fin 4096 → Fin 1024 → EReal) (b2 : Fin 1024 → EReal) (d : Fin 1024) : EReal :=
  out (hid (lnorm x lw lb) w1 b1) w2 b2 d

/-- A sum over 4096 terms is the sum of its four runs of 1024. -/
theorem sum_4096_eq_4x1024 {M : Type*} [AddCommMonoid M] (f : Fin 4096 → M) :
    ∑ r : Fin 4096, f r = ∑ c : Fin 4, ∑ j : Fin 1024, f ⟨1024 * c.val + j.val, by omega⟩ := by
  have e := Equiv.sum_comp (finProdFinEquiv (m := 4) (n := 1024)) (fun r : Fin (4 * 1024) => f r)
  rw [show (∑ r : Fin 4096, f r) = ∑ r : Fin (4 * 1024), f r from rfl, ← e, Fintype.sum_prod_type]
  refine Finset.sum_congr rfl fun c _ => Finset.sum_congr rfl fun j _ => congrArg f (Fin.ext ?_)
  show j.val + 1024 * c.val = 1024 * c.val + j.val
  omega

/-- The same sum accumulated from zero, run after run, in order. -/
theorem sum_4096_chunks {M : Type*} [AddCommMonoid M] (f : Fin 4096 → M) :
    ∑ r : Fin 4096, f r =
      0 + (∑ j : Fin 1024, f ⟨0 + j.val, by omega⟩) + (∑ j : Fin 1024, f ⟨1024 + j.val, by omega⟩)
        + (∑ j : Fin 1024, f ⟨2048 + j.val, by omega⟩) + (∑ j : Fin 1024, f ⟨3072 + j.val, by omega⟩) := by
  rw [sum_4096_eq_4x1024, Fin.sum_univ_four, zero_add]
  rfl

/-- The output layer with its sum accumulated from the printed zero, run after run of 1024 hidden units. -/
theorem out_chunks (g : Fin 4096 → EReal) (w : Fin 4096 → Fin 1024 → EReal) (b : Fin 1024 → EReal) (d : Fin 1024) :
    out g w b d =
      cZ + (∑ j : Fin 1024, g ⟨0 + j.val, by omega⟩ * w ⟨0 + j.val, by omega⟩ d)
        + (∑ j : Fin 1024, g ⟨1024 + j.val, by omega⟩ * w ⟨1024 + j.val, by omega⟩ d)
        + (∑ j : Fin 1024, g ⟨2048 + j.val, by omega⟩ * w ⟨2048 + j.val, by omega⟩ d)
        + (∑ j : Fin 1024, g ⟨3072 + j.val, by omega⟩ * w ⟨3072 + j.val, by omega⟩ d) + b d := by
  unfold out
  rw [sum_4096_chunks (fun f => g f * w f d)]
  show _ = Ideal.ofBits .f32 0x00000000#32 + _ + _ + _ + _ + _
  rw [Ideal.ofBits_zero_f32]

end Cert.FFN

end
-- ==== Proof.RefSide.lean ====
/-
  The reference, read entry by entry: its result at batch `b`, position `s` and column `d` is the feed-forward block of
  row `(b, s)` of the input, with the weights and biases as given.

  The reference's operations are read one at a time (the generated stage lemmas); written here are the coordinates each
  layout operation reads its operand at, and the stages in the order the formula is built: the mean, the deviation,
  the variance, the reciprocal square root, the normalised row, the hidden layer, the output.
-/
import proofs.«143001_j53987738911461_2_alg».proof.Proof.Gen.ReferenceIdeal.Read
import proofs.«143001_j53987738911461_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx

/-! ## Where each layout operation reads its operand -/

theorem i_v1 (b : Fin 4) (s : Fin 2048) (u : Fin 1) : idx_main_v1 (ix3 b s u) = ix2 b s :=
  funext fun a => Fin.ext (by match a with | ⟨0, _⟩ => rfl | ⟨1, _⟩ => rfl)
theorem i_v0 (b : Fin 4) (s : Fin 2048) (k : Fin 1024) : idx_main_v0 (ix2 b s) k = ix3 b s k :=
  funext fun a => Fin.ext (by match a with | ⟨0, _⟩ => rfl | ⟨1, _⟩ => rfl | ⟨2, _⟩ => rfl)
theorem i_v8 (b : Fin 4) (s : Fin 2048) (u : Fin 1) : idx_main_v8 (ix3 b s u) = ix2 b s :=
  funext fun a => Fin.ext (by match a with | ⟨0, _⟩ => rfl | ⟨1, _⟩ => rfl)
theorem i_v7 (b : Fin 4) (s : Fin 2048) (k : Fin 1024) : idx_main_v7 (ix2 b s) k = ix3 b s k :=
  funext fun a => Fin.ext (by match a with | ⟨0, _⟩ => rfl | ⟨1, _⟩ => rfl | ⟨2, _⟩ => rfl)
theorem i_v4 (b : Fin 4) (s : Fin 2048) (k : Fin 1024) : idx_main_v4 (ix3 b s k) = ix3 b s (0 : Fin 1) :=
  funext fun a => Fin.ext (by match a with | ⟨0, _⟩ => rfl | ⟨1, _⟩ => rfl | ⟨2, _⟩ => rfl)
theorem i_v11 (b : Fin 4) (s : Fin 2048) (k : Fin 1024) : idx_main_v11 (ix3 b s k) = ix3 b s (0 : Fin 1) :=
  funext fun a => Fin.ext (by match a with | ⟨0, _⟩ => rfl | ⟨1, _⟩ => rfl | ⟨2, _⟩ => rfl)
theorem i_v16 (b : Fin 4) (s : Fin 2048) (k : Fin 1024) : idx_main_v16 (ix3 b s k) = ix3 b s (0 : Fin 1) :=
  funext fun a => Fin.ext (by match a with | ⟨0, _⟩ => rfl | ⟨1, _⟩ => rfl | ⟨2, _⟩ => rfl)
theorem i_v19 (b : Fin 4) (s : Fin 2048) (k : Fin 1024) : idx_main_v19 (ix3 b s k) = ix3 (0 : Fin 1) (0 : Fin 1) k :=
  funext fun a => Fin.ext (by match a with | ⟨0, _⟩ => rfl | ⟨1, _⟩ => rfl | ⟨2, _⟩ => rfl)
theorem i_v18 (u v : Fin 1) (k : Fin 1024) : idx_main_v18 (ix3 u v k) = ix1 k :=
  funext fun a => Fin.ext (by match a with | ⟨0, _⟩ => rfl)
theorem i_v22 (b : Fin 4) (s : Fin 2048) (k : Fin 1024) : idx_main_v22 (ix3 b s k) = ix3 (0 : Fin 1) (0 : Fin 1) k :=
  funext fun a => Fin.ext (by match a with | ⟨0, _⟩ => rfl | ⟨1, _⟩ => rfl | ⟨2, _⟩ => rfl)
theorem i_v21 (u v : Fin 1) (k : Fin 1024) : idx_main_v21 (ix3 u v k) = ix1 k :=
  funext fun a => Fin.ext (by match a with | ⟨0, _⟩ => rfl)
theorem i_v26 (b : Fin 4) (s : Fin 2048) (f : Fin 4096) : idx_main_v26 (ix3 b s f) = ix3 (0 : Fin 1) (0 : Fin 1) f :=
  funext fun a => Fin.ext (by match a with | ⟨0, _⟩ => rfl | ⟨1, _⟩ => rfl | ⟨2, _⟩ => rfl)
theorem i_v25 (u v : Fin 1) (f : Fin 4096) : idx_main_v25 (ix3 u v f) = ix1 f :=
  funext fun a => Fin.ext (by match a with | ⟨0, _⟩ => rfl)
theorem i_v32 (b : Fin 4) (s : Fin 2048) (k : Fin 1024) : idx_main_v32 (ix3 b s k) = ix3 (0 : Fin 1) (0 : Fin 1) k :=
  funext fun a => Fin.ext (by match a with | ⟨0, _⟩ => rfl | ⟨1, _⟩ => rfl | ⟨2, _⟩ => rfl)
theorem i_v31 (u v : Fin 1) (k : Fin 1024) : idx_main_v31 (ix3 u v k) = ix1 k :=
  funext fun a => Fin.ext (by match a with | ⟨0, _⟩ => rfl)
theorem l_v24 (b : Fin 4) (s : Fin 2048) (f : Fin 4096) (k : Fin 1024) : lidx_main_v24 (ix3 b s f) k = ix3 b s k :=
  funext fun a => Fin.ext (by match a with | ⟨0, _⟩ => rfl | ⟨1, _⟩ => rfl | ⟨2, _⟩ => rfl)
theorem r_v24 (b : Fin 4) (s : Fin 2048) (f : Fin 4096) (k : Fin 1024) : ridx_main_v24 (ix3 b s f) k = ix2 k f :=
  funext fun a => Fin.ext (by match a with | ⟨0, _⟩ => rfl | ⟨1, _⟩ => rfl)
theorem l_v30 (b : Fin 4) (s : Fin 2048) (d : Fin 1024) (f : Fin 4096) : lidx_main_v30 (ix3 b s d) f = ix3 b s f :=
  funext fun a => Fin.ext (by match a with | ⟨0, _⟩ => rfl | ⟨1, _⟩ => rfl | ⟨2, _⟩ => rfl)
theorem r_v30 (b : Fin 4) (s : Fin 2048) (d : Fin 1024) (f : Fin 4096) : ridx_main_v30 (ix3 b s d) f = ix2 f d :=
  funext fun a => Fin.ext (by match a with | ⟨0, _⟩ => rfl | ⟨1, _⟩ => rfl)

/-! ## The stages -/

variable (x0 : (⟨S4x2048x1024, .f32⟩ : BufTy).Contents (Elt Ideal)) (x1 x2 : (⟨S1024, .f32⟩ : BufTy).Contents (Elt Ideal))
  (x3 : (⟨S1024x4096, .f32⟩ : BufTy).Contents (Elt Ideal)) (x4 : (⟨S4096, .f32⟩ : BufTy).Contents (Elt Ideal))
  (x5 : (⟨S4096x1024, .f32⟩ : BufTy).Contents (Elt Ideal)) (x6 : (⟨S1024, .f32⟩ : BufTy).Contents (Elt Ideal))
  (b : Fin 4) (s : Fin 2048)

/-- The mean of row `(b, s)`. -/
theorem mean_eq : val_main_v3 (F := Ideal) x0 (ix3 b s (0 : Fin 1)) = FFN.mean (fun k => x0 (ix3 b s k)) := by
  rw [val_main_v3_apply, val_main_v1_apply, i_v1, val_main_v0_apply, val_main_v2_apply, val_main_cst_0_apply, val_main_cst_apply]
  simp only [i_v0, Ideal.hostDivf_def, Ideal.ofBits_def, Ideal.ofBits_zero_f32, zero_add]
  rfl

/-- The deviation from the mean, as the variance reads it. -/
theorem dev_eq (k : Fin 1024) :
    val_main_v5 (F := Ideal) x0 (ix3 b s k) = x0 (ix3 b s k) - FFN.mean (fun k => x0 (ix3 b s k)) := by
  rw [val_main_v5_apply, val_main_v4_apply, i_v4, mean_eq]
  rfl

/-- The deviation from the mean, as the normalised row reads it. -/
theorem dev_eq' (k : Fin 1024) :
    val_main_v12 (F := Ideal) x0 (ix3 b s k) = x0 (ix3 b s k) - FFN.mean (fun k => x0 (ix3 b s k)) := by
  rw [val_main_v12_apply, val_main_v11_apply, i_v11, mean_eq]
  rfl

/-- The mean squared deviation of row `(b, s)`. -/
theorem var_eq : val_main_v10 (F := Ideal) x0 (ix3 b s (0 : Fin 1)) = FFN.var (fun k => x0 (ix3 b s k)) := by
  rw [val_main_v10_apply, val_main_v8_apply, i_v8, val_main_v7_apply, val_main_v9_apply, val_main_cst_2_apply, val_main_cst_1_apply]
  simp only [i_v7, val_main_v6_apply, dev_eq, Ideal.mulf_def, Ideal.hostDivf_def, Ideal.ofBits_def, Ideal.ofBits_zero_f32, zero_add]
  rfl

/-- The reciprocal square root of the variance plus the small constant. -/
theorem rstd_eq : val_main_v15 (F := Ideal) x0 (ix3 b s (0 : Fin 1))
    = Ideal.rsqrt (FFN.var (fun k => x0 (ix3 b s k)) + FFN.cEps) := by
  rw [val_main_v15_apply, val_main_v14_apply, var_eq, val_main_v13_apply, val_main_cst_3_apply]
  rfl

/-- The normalised, scaled and shifted row. -/
theorem lnorm_eq (k : Fin 1024) : val_main_v23 (F := Ideal) x0 x1 x2 (ix3 b s k)
    = FFN.lnorm (fun k => x0 (ix3 b s k)) (fun k => x1 (ix1 k)) (fun k => x2 (ix1 k)) k := by
  rw [val_main_v23_apply, val_main_v20_apply, val_main_v17_apply, dev_eq', val_main_v16_apply, i_v16, rstd_eq,
    val_main_v19_apply, i_v19, val_main_v18_apply, i_v18, val_main_v22_apply, i_v22, val_main_v21_apply, i_v21]
  rfl

/-- The hidden layer. -/
theorem hid_eq (f : Fin 4096) : val_main_v29 (F := Ideal) x0 x1 x2 x3 x4 (ix3 b s f)
    = FFN.hid (FFN.lnorm (fun k => x0 (ix3 b s k)) (fun k => x1 (ix1 k)) (fun k => x2 (ix1 k)))
        (fun j f => x3 (ix2 j f)) (fun f => x4 (ix1 f)) f := by
  rw [val_main_v29_apply, val_main_v27_apply, val_main_v24_apply, val_main_v26_apply, i_v26, val_main_v25_apply, i_v25,
    val_main_v28_apply, val_main_cst_4_apply]
  simp only [l_v24, r_v24, lnorm_eq]
  rfl

/-- The result. -/
theorem result_apply (d : Fin 1024) : val_main_v33 (F := Ideal) x0 x1 x2 x3 x4 x5 x6 (ix3 b s d)
    = FFN.ffn (fun k => x0 (ix3 b s k)) (fun k => x1 (ix1 k)) (fun k => x2 (ix1 k)) (fun j f => x3 (ix2 j f))
        (fun f => x4 (ix1 f)) (fun f d => x5 (ix2 f d)) (fun d => x6 (ix1 d)) d := by
  rw [val_main_v33_apply, val_main_v30_apply, val_main_v32_apply, i_v32, val_main_v31_apply, i_v31]
  simp only [l_v30, r_v30, hid_eq]
  rfl

end Cert.ReferenceIdeal.RefValue

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KernelBody.lean ====
/-
  What the kernel's body computes for one block of 512 rows, read entry by entry.

  The body normalises each of the block's rows, multiplies it into the hidden layer in four runs of 1024 hidden units
  (each run: a matrix product into a zero accumulator, plus the bias, clipped at zero), multiplies each run back into
  the 1024 outputs and adds the four products up from zero, and adds the output bias.  Read at row `r` and column `d`
  this is the feed-forward block of row `r` of the input block, with the weights and biases as the body loads them:
  the hidden weights' columns and the output weights' rows in runs of 1024 from offsets 0, 1024, 2048 and 3072.
-/
import proofs.«143001_j53987738911461_2_alg».proof.Proof.Gen.KernelIdeal.Frame
import proofs.«143001_j53987738911461_2_alg».proof.Proof.LibLayout
import proofs.«143001_j53987738911461_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.LibLayout

/-- The body's one matrix-product record: rows of 1024 against a 1024 × 1024 matrix. -/
abbrev DD : DotDims S512x1024 S1024x1024 S512x1024 := dot_S512x1024_S1024x1024_S512x1024_1_0_0_1_n_n

theorem DD_l0 (j : S512x1024.Idx) (k : DD.contr.Idx) : (DD.lhsIdx j k 0).val = (j 0).val := by
  unfold DotDims.lhsIdx
  rw [dif_neg (show ¬(0 : Fin S512x1024.rank) ∈ DD.lhsBatch by decide), dif_pos (show (0 : Fin S512x1024.rank) ∈ DD.lhsNonContracting by decide)]
  rfl

theorem DD_r1 (j : S512x1024.Idx) (k : DD.contr.Idx) : (DD.rhsIdx j k 1).val = (j 1).val := by
  unfold DotDims.rhsIdx
  rw [dif_neg (show ¬(1 : Fin S1024x1024.rank) ∈ DD.rhsBatch by decide), dif_pos (show (1 : Fin S1024x1024.rank) ∈ DD.rhsNonContracting by decide)]
  rfl

/-- A product of the block's rows with a 1024 × 1024 matrix into a zero accumulator, at `(r, d)`. -/
theorem mm_apply {φ₁ φ₂ : FTy} (a : FVec Ideal S512x1024 φ₁) (w : FVec Ideal S1024x1024 φ₂) (r : Fin 512) (d : Fin 1024) :
    matmul DD none a w (constant S512x1024 .f32 0x00000000#32) (ix2 r d) = ∑ k : Fin 1024, a (ix2 r k) * w (ix2 k d) :=
  matmul_rows_cols_apply DD rfl rfl rfl rfl DD_l0 DD_r1 none a w r d

theorem rsqrt_apply {s : Shape} {φ : FTy} (a : FVec Ideal s φ) (i : s.Idx) : rsqrt a i = Ideal.rsqrt (a i) := rfl

/-- The normalised block at `(r, d)` is the normalisation of row `r`. -/
theorem pay2_apply (v0 : Vec Ideal S512x1024 .f32) (v20 v24 : Vec Ideal S1x1024 .f32) (r : Fin 512) (d : Fin 1024) :
    k0_pay2 (F := Ideal) v0 v20 v24 (ix2 r d)
      = FFN.lnorm (fun k => v0 (ix2 r k)) (fun k => v20 (ix2 (0 : Fin 1) k)) (fun k => v24 (ix2 (0 : Fin 1) k)) d := by
  unfold k0_pay2
  simp only [shapeCast_self, truncf_apply, addf_apply, mulf_apply, subf_apply, divf_apply, rsqrt_apply, broadcast_apply,
    broadcastTo_a1_ab_apply, shapeCast_a_a1_apply, broadcastTo_1b_ab_apply]
  rw [sum_rows_apply v0, sum_rows_apply]
  simp only [shapeCast_self, truncf_apply, addf_apply, mulf_apply, subf_apply, divf_apply, rsqrt_apply, broadcast_apply,
    broadcastTo_a1_ab_apply, shapeCast_a_a1_apply, broadcastTo_1b_ab_apply]
  rw [sum_rows_apply v0]
  rfl

/-! ## The body's loads -/

theorem hz : (![0, 0] : Fin 2 → Nat) = fun _ => 0 := funext fun a => by fin_cases a <;> rfl

/-- A run of 1024 columns of the hidden weights, from column `c`. -/
theorem ld_cols (x3 : Vec Ideal S1024x4096 .bf16) (c : ℕ)
    (inb : ∀ a, (![0, c] : Fin 2 → ℕ) a + S1024x1024.size a ≤ S1024x4096.size a) :
    View.ld x3 (Rect.unit (s := S1024x4096) ![0, c] S1024x1024.size inb)
      = fun i : S1024x1024.Idx => x3 (ix2 (i 0) ⟨c + (i 1).val, Nat.lt_of_lt_of_le (Nat.add_lt_add_left (i 1).isLt c) (inb 1)⟩) :=
  funext fun i => congrArg x3 (funext fun a => Fin.ext (by
    match a with
    | ⟨0, _⟩ => show 0 + 1 * (i 0).val = (i 0).val; omega
    | ⟨1, _⟩ => show c + 1 * (i 1).val = c + (i 1).val; omega))

/-- A run of 1024 entries of the hidden bias, from entry `c`. -/
theorem ld_bias (x4 : Vec Ideal S1x4096 .f32) (c : ℕ)
    (inb : ∀ a, (![0, c] : Fin 2 → ℕ) a + S1x1024.size a ≤ S1x4096.size a) :
    View.ld x4 (Rect.unit (s := S1x4096) ![0, c] S1x1024.size inb)
      = fun i : S1x1024.Idx => x4 (ix2 (i 0) ⟨c + (i 1).val, Nat.lt_of_lt_of_le (Nat.add_lt_add_left (i 1).isLt c) (inb 1)⟩) :=
  funext fun i => congrArg x4 (funext fun a => Fin.ext (by
    match a with
    | ⟨0, _⟩ => show 0 + 1 * (i 0).val = (i 0).val; omega
    | ⟨1, _⟩ => show c + 1 * (i 1).val = c + (i 1).val; omega))

/-- A run of 1024 rows of the output weights, from row `c`. -/
theorem ld_rows (x5 : Vec Ideal S4096x1024 .bf16) (c : ℕ)
    (inb : ∀ a, (![c, 0] : Fin 2 → ℕ) a + S1024x1024.size a ≤ S4096x1024.size a) :
    View.ld x5 (Rect.unit (s := S4096x1024) ![c, 0] S1024x1024.size inb)
      = fun i : S1024x1024.Idx => x5 (ix2 ⟨c + (i 0).val, Nat.lt_of_lt_of_le (Nat.add_lt_add_left (i 0).isLt c) (inb 0)⟩ (i 1)) :=
  funext fun i => congrArg x5 (funext fun a => Fin.ext (by
    match a with
    | ⟨0, _⟩ => show c + 1 * (i 0).val = c + (i 0).val; omega
    | ⟨1, _⟩ => show 0 + 1 * (i 1).val = (i 1).val; omega))

/-! ## The block the body stores -/

/-- What the body leaves in the output block, at `(r, d)`: the feed-forward block of row `r` of the input block. -/
theorem out_apply (x0 : Vec Ideal S512x1024 .f32) (x1 x2 : Vec Ideal S1x1024 .f32) (x3 : Vec Ideal S1024x4096 .bf16)
    (x4 : Vec Ideal S1x4096 .f32) (x5 : Vec Ideal S4096x1024 .bf16) (x6 : Vec Ideal S1x1024 .f32) (r : Fin 512) (d : Fin 1024) :
    out0_7 (F := Ideal) x0 x1 x2 x3 x4 x5 x6 (ix2 r d)
      = FFN.ffn (fun k => x0 (ix2 r k)) (fun k => x1 (ix2 (0 : Fin 1) k)) (fun k => x2 (ix2 (0 : Fin 1) k))
          (fun j f => x3 (ix2 j f)) (fun f => x4 (ix2 (0 : Fin 1) f)) (fun f d => x5 (ix2 f d)) (fun d => x6 (ix2 (0 : Fin 1) d)) d := by
  unfold out0_7
  rw [View.canon_unit_zero hz]
  rw [ld_cols x3 0, ld_cols x3 1024, ld_cols x3 2048, ld_cols x3 3072, ld_bias x4 0, ld_bias x4 1024, ld_bias x4 2048,
    ld_bias x4 3072, ld_rows x5 0, ld_rows x5 1024, ld_rows x5 2048, ld_rows x5 3072]
  unfold k0_pay1 k0_pay5 k0_pay4 k0_pay6 k0_pay7 k0_pay3
  simp only [View.ld_unit_zero (S := S512x1024) hz, View.ld_unit_zero (S := S1x1024) hz, shapeCast_self, truncf_apply,
    addf_apply, maximumf_apply, broadcast_apply, mm_apply, broadcastTo_1b_ab_apply, pay2_apply]
  rw [FFN.ffn, FFN.out_chunks]
  rfl

end Cert.KernelIdeal.Body

end
-- ==== Proof.KernelValue.lean ====
/-
  The region's output array as one function, and where each block sits.

  Each of the sixteen grid points works on one block of 512 rows of the flattened input and of the output; the blocks of
  the other operands are the whole arrays.  Stated here: the feed-forward block of a row of the flattened input as an array
  over the 8192 × 1024 indices, the printed index maps decided over the sixteen points, and each window's block index
  placed in its array.
-/
import proofs.«143001_j53987738911461_2_alg».proof.Proof.KernelBody
import Idealize.ShloMosaic.Lib.StableHlo.Run
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The region's output array -/

/-- The feed-forward block of row `R` of a flattened input, at column `d`, with every vector laid as a single row. -/
def rowsOut (X : S8192x1024.Idx → EReal) (LW LB : S1x1024.Idx → EReal) (W1 : S1024x4096.Idx → EReal)
    (B1 : S1x4096.Idx → EReal) (W2 : S4096x1024.Idx → EReal) (B2 : S1x1024.Idx → EReal) (R : Fin 8192) (d : Fin 1024) : EReal :=
  FFN.ffn (fun k => X (ix2 R k)) (fun k => LW (ix2 (0 : Fin 1) k)) (fun k => LB (ix2 (0 : Fin 1) k))
    (fun j f => W1 (ix2 j f)) (fun f => B1 (ix2 (0 : Fin 1) f)) (fun f d => W2 (ix2 f d)) (fun d => B2 (ix2 (0 : Fin 1) d)) d

/-- The same as an array over the 8192 × 1024 indices. -/
def G2 (X : S8192x1024.Idx → EReal) (LW LB : S1x1024.Idx → EReal) (W1 : S1024x4096.Idx → EReal)
    (B1 : S1x4096.Idx → EReal) (W2 : S4096x1024.Idx → EReal) (B2 : S1x1024.Idx → EReal) : S8192x1024.Idx → Elt Ideal .f32 :=
  fun i => rowsOut X LW LB W1 B1 W2 B2 (i 0) (i 1)

/-- The printed index maps over the sixteen points: the input's and the output's blocks move down the rows with the point,
    every other operand's block is the whole array. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 16 := by
  have h := t.isLt
  have hN : cfg0.N = 16 := N_0
  omega

/-- Where row `r` of point `t`'s block sits in the flattened rows. -/
def rowOf (t : Fin cfg0.N) (r : Fin 512) : Fin 8192 := ⟨t.val * 512 + r.val, by have := t_lt t; have := r.isLt; omega⟩

theorem emb0 (t : Fin cfg0.N) (r : Fin 512) (k : Fin 1024) :
    ((cfg0.win 0).blk t).view.emb (ix2 r k) = (ix2 (rowOf t r) k : S8192x1024.Idx) := by
  obtain ⟨e0, e1, -⟩ := idx_facts t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb7 (t : Fin cfg0.N) (r : Fin 512) (k : Fin 1024) :
    ((cfg0.win 7).blk t).view.emb (ix2 r k) = (ix2 (rowOf t r) k : S8192x1024.Idx) := by
  obtain ⟨-, -, e0, e1, -⟩ := idx_facts t
  funext a; apply Fin.ext
  match a with
  | ⟨0, _⟩ => show win0_7.index t (0 : Fin 2) * 512 + 1 * r.val = t.val * 512 + r.val; omega
  | ⟨1, _⟩ => show win0_7.index t (1 : Fin 2) * 1024 + 1 * k.val = k.val; omega

theorem emb1 (t : Fin cfg0.N) (u : Fin 1) (k : Fin 1024) :
    ((cfg0.win 1).blk t).view.emb (ix2 u k) = (ix2 u k : S1x1024.Idx) := by
  obtain ⟨-, -, -, -, e0, e1, -⟩ := idx_facts t
  funext a; apply Fin.ext
  match a with
  | ⟨0, _⟩ => show win0_1.index t (0 : Fin 2) * 1 + 1 * u.val = u.val; omega
  | ⟨1, _⟩ => show win0_1.index t (1 : Fin 2) * 1024 + 1 * k.val = k.val; omega

theorem emb2 (t : Fin cfg0.N) (u : Fin 1) (k : Fin 1024) :
    ((cfg0.win 2).blk t).view.emb (ix2 u k) = (ix2 u k : S1x1024.Idx) := by
  obtain ⟨-, -, -, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 1024 + 1 * k.val = k.val; omega

theorem emb3 (t : Fin cfg0.N) (j : Fin 1024) (f : Fin 4096) :
    ((cfg0.win 3).blk t).view.emb (ix2 j f) = (ix2 j f : S1024x4096.Idx) := by
  obtain ⟨-, -, -, -, -, -, -, -, e0, e1, -⟩ := idx_facts t
  funext a; apply Fin.ext
  match a with
  | ⟨0, _⟩ => show win0_3.index t (0 : Fin 2) * 1024 + 1 * j.val = j.val; omega
  | ⟨1, _⟩ => show win0_3.index t (1 : Fin 2) * 4096 + 1 * f.val = f.val; omega

theorem emb4 (t : Fin cfg0.N) (u : Fin 1) (f : Fin 4096) :
    ((cfg0.win 4).blk t).view.emb (ix2 u f) = (ix2 u f : S1x4096.Idx) := by
  obtain ⟨-, -, -, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 4096 + 1 * f.val = f.val; omega

theorem emb5 (t : Fin cfg0.N) (f : Fin 4096) (d : Fin 1024) :
    ((cfg0.win 5).blk t).view.emb (ix2 f d) = (ix2 f d : S4096x1024.Idx) := by
  obtain ⟨-, -, -, -, -, -, -, -, -, -, -, -, e0, e1, -⟩ := idx_facts t
  funext a; apply Fin.ext
  match a with
  | ⟨0, _⟩ => show win0_5.index t (0 : Fin 2) * 4096 + 1 * f.val = f.val; omega
  | ⟨1, _⟩ => show win0_5.index t (1 : Fin 2) * 1024 + 1 * d.val = d.val; omega

theorem emb6 (t : Fin cfg0.N) (u : Fin 1) (k : Fin 1024) :
    ((cfg0.win 6).blk t).view.emb (ix2 u k) = (ix2 u k : S1x1024.Idx) := by
  obtain ⟨-, -, -, -, -, -, -, -, -, -, -, -, -, -, e0, e1⟩ := idx_facts t
  funext a; apply Fin.ext
  match a with
  | ⟨0, _⟩ => show win0_6.index t (0 : Fin 2) * 1 + 1 * u.val = u.val; omega
  | ⟨1, _⟩ => show win0_6.index t (1 : Fin 2) * 1024 + 1 * k.val = k.val; omega

end Cert.KernelIdeal.KValue

end
-- ==== Proof.KernelBlocks.lean ====
/-
  The output array after the region.

  What a grid point writes back is its block of the rows' feed-forward block; the sixteen blocks tile the 8192 rows (row `R`
  is in the block of point `R / 512`), so after the region the output array is that function everywhere.
-/
import proofs.«143001_j53987738911461_2_alg».proof.Proof.KernelValue

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Each window's block at a point, read off its array -/

theorem iblk0 (c : Dev nD) (t : Fin cfg0.N) (r : Fin 512) (k : Fin 1024) :
    iblk m c 0 t (ix2 r k) = V m c main_v0 (ix2 (rowOf t r) k) := by
  show V m c main_v0 (((cfg0.win 0).blk t).view.emb (ix2 r k)) = _
  rw [emb0]

theorem iblk1 (c : Dev nD) (t : Fin cfg0.N) (u : Fin 1) (k : Fin 1024) :
    iblk m c 1 t (ix2 u k) = V m c main_v1 (ix2 u k) := by
  show V m c main_v1 (((cfg0.win 1).blk t).view.emb (ix2 u k)) = _
  rw [emb1]

theorem iblk2 (c : Dev nD) (t : Fin cfg0.N) (u : Fin 1) (k : Fin 1024) :
    iblk m c 2 t (ix2 u k) = V m c main_v2 (ix2 u k) := by
  show V m c main_v2 (((cfg0.win 2).blk t).view.emb (ix2 u k)) = _
  rw [emb2]

theorem iblk3 (c : Dev nD) (t : Fin cfg0.N) (j : Fin 1024) (f : Fin 4096) :
    iblk m c 3 t (ix2 j f) = V m c main_v5 (ix2 j f) := by
  show V m c main_v5 (((cfg0.win 3).blk t).view.emb (ix2 j f)) = _
  rw [emb3]

theorem iblk4 (c : Dev nD) (t : Fin cfg0.N) (u : Fin 1) (f : Fin 4096) :
    iblk m c 4 t (ix2 u f) = V m c main_v3 (ix2 u f) := by
  show V m c main_v3 (((cfg0.win 4).blk t).view.emb (ix2 u f)) = _
  rw [emb4]

theorem iblk5 (c : Dev nD) (t : Fin cfg0.N) (f : Fin 4096) (d : Fin 1024) :
    iblk m c 5 t (ix2 f d) = V m c main_v6 (ix2 f d) := by
  show V m c main_v6 (((cfg0.win 5).blk t).view.emb (ix2 f d)) = _
  rw [emb5]

theorem iblk6 (c : Dev nD) (t : Fin cfg0.N) (u : Fin 1) (k : Fin 1024) :
    iblk m c 6 t (ix2 u k) = V m c main_v4 (ix2 u k) := by
  show V m c main_v4 (((cfg0.win 6).blk t).view.emb (ix2 u k)) = _
  rw [emb6]

/-- What point `t` writes back is block `t` of the rows' feed-forward block, of the arrays as the region finds them. -/
theorem flushed_eq (c : Dev nD) (t : Fin cfg0.N) :
    (dats m 0 c).flushed 7 t = ((cfg0.win 7).blk t).view.read (Elt Ideal)
      (G2 (V m c main_v0) (V m c main_v1) (V m c main_v2) (V m c main_v5) (V m c main_v3) (V m c main_v6) (V m c main_v4)) := by
  show (cfg0.win 7).cut (grid0.coords t) ((dats m 0 c).after 7 t) = _
  rw [after0_7]
  funext y
  obtain ⟨r, d, rfl⟩ : ∃ (r : Fin 512) (d : Fin 1024), y = ix2 r d := ⟨y 0, y 1, eq_ix2 y⟩
  show out0_7 (iblk m c 0 t) (iblk m c 1 t) (iblk m c 2 t) (iblk m c 3 t) (iblk m c 4 t) (iblk m c 5 t) (iblk m c 6 t) (ix2 r d)
    = G2 (V m c main_v0) (V m c main_v1) (V m c main_v2) (V m c main_v5) (V m c main_v3) (V m c main_v6) (V m c main_v4)
        (((cfg0.win 7).blk t).view.emb (ix2 r d))
  rw [emb7 t r d]
  refine (Body.out_apply (iblk m c 0 t) (iblk m c 1 t) (iblk m c 2 t) (iblk m c 3 t) (iblk m c 4 t) (iblk m c 5 t) (iblk m c 6 t) r d).trans ?_
  have e0 : (fun k => iblk m c 0 t (ix2 r k)) = fun k => V m c main_v0 (ix2 (rowOf t r) k) := funext fun k => iblk0 m c t r k
  have e1 : (fun k => iblk m c 1 t (ix2 (0 : Fin 1) k)) = fun k => V m c main_v1 (ix2 (0 : Fin 1) k) := funext fun k => iblk1 m c t 0 k
  have e2 : (fun k => iblk m c 2 t (ix2 (0 : Fin 1) k)) = fun k => V m c main_v2 (ix2 (0 : Fin 1) k) := funext fun k => iblk2 m c t 0 k
  have e3 : (fun j f => iblk m c 3 t (ix2 j f)) = fun j f => V m c main_v5 (ix2 j f) := funext fun j => funext fun f => iblk3 m c t j f
  have e4 : (fun f => iblk m c 4 t (ix2 (0 : Fin 1) f)) = fun f => V m c main_v3 (ix2 (0 : Fin 1) f) := funext fun f => iblk4 m c t 0 f
  have e5 : (fun f d => iblk m c 5 t (ix2 f d)) = fun f d => V m c main_v6 (ix2 f d) := funext fun f => funext fun d => iblk5 m c t f d
  have e6 : (fun k => iblk m c 6 t (ix2 (0 : Fin 1) k)) = fun k => V m c main_v4 (ix2 (0 : Fin 1) k) := funext fun k => iblk6 m c t 0 k
  rw [e0, e1, e2, e3, e4, e5, e6]
  rfl

/-- An index of the output array is in point `t`'s block iff each coordinate is in the block's range. -/
theorem mem_blk (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v7).slice (win0_7.rect t)).set ↔ _
  rw [View.set_slice_whole, Rect.mem_set_unit]
  exact Iff.rfl

/-- Every row is in some point's block: row `R` in that of point `R / 512`. -/
theorem cover (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  have ht : (i 0).val / 512 < cfg0.N := by omega
  obtain ⟨-, -, e0, e1, -⟩ := idx_facts ⟨(i 0).val / 512, ht⟩
  refine ⟨⟨(i 0).val / 512, ht⟩, flush0_7 _, ?_⟩
  rw [mem_blk]
  intro a
  match a with
  | ⟨0, _⟩ =>
    show win0_7.index ⟨(i 0).val / 512, ht⟩ (0 : Fin 2) * 512 ≤ (i 0).val
      ∧ (i 0).val < win0_7.index ⟨(i 0).val / 512, ht⟩ (0 : Fin 2) * 512 + 512
    have e0' : win0_7.index ⟨(i 0).val / 512, ht⟩ (0 : Fin 2) = (i 0).val / 512 := e0
    omega
  | ⟨1, _⟩ =>
    show win0_7.index ⟨(i 0).val / 512, ht⟩ (1 : Fin 2) * 1024 ≤ (i 1).val
      ∧ (i 1).val < win0_7.index ⟨(i 0).val / 512, ht⟩ (1 : Fin 2) * 1024 + 1024
    omega

/-- The output array after the region. -/
theorem final (c : Dev nD) : (dats m 0 c).arrAt 7 cfg0.N
    = G2 (V m c main_v0) (V m c main_v1) (V m c main_v2) (V m c main_v5) (V m c main_v3) (V m c main_v6) (V m c main_v4) :=
  (dats m 0 c).arrAt_eq_of_cover 7 _ (fun t _ => flushed_eq m c t) cover

end Cert.KernelIdeal.KValue

end
-- ==== Proof.KernelRun.lean ====
/-
  The kernel's run, read: the host's operations around the region, and the result as one function of the arguments.

  Before the region the host flattens the input's batch and position axes into 8192 rows, lays each vector as one row,
  and changes the weights' format, which on the extended reals changes nothing.  After it the host splits the rows back.
  Read at `(b, s, d)`, the program's result is the feed-forward block of row `(b, s)` of the input.
-/
import proofs.«143001_j53987738911461_2_alg».proof.Proof.KernelBlocks

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the region finds them -/

theorem V_v0 (c : Dev nD) : (V m c main_v0 : S8192x1024.Idx → EReal)
    = shapeCast S8192x1024 (m ((c : Thread nD τ).loc main_arg0)) shapeCasts_S4x2048x1024_S8192x1024 := by
  show StableHlo.after hostOps0 (fun b => m (c, b)) (Proc.devRef .tc main_v0) = _
  after_results; rfl

theorem V_v1 (c : Dev nD) : (V m c main_v1 : S1x1024.Idx → EReal)
    = shapeCast S1x1024 (m ((c : Thread nD τ).loc main_arg1)) shapeCasts_S1024_S1x1024 := by
  show StableHlo.after hostOps0 (fun b => m (c, b)) (Proc.devRef .tc main_v1) = _
  after_results; rfl

theorem V_v2 (c : Dev nD) : (V m c main_v2 : S1x1024.Idx → EReal)
    = shapeCast S1x1024 (m ((c : Thread nD τ).loc main_arg2)) shapeCasts_S1024_S1x1024 := by
  show StableHlo.after hostOps0 (fun b => m (c, b)) (Proc.devRef .tc main_v2) = _
  after_results; rfl

theorem V_v3 (c : Dev nD) : (V m c main_v3 : S1x4096.Idx → EReal)
    = shapeCast S1x4096 (m ((c : Thread nD τ).loc main_arg4)) shapeCasts_S4096_S1x4096 := by
  show StableHlo.after hostOps0 (fun b => m (c, b)) (Proc.devRef .tc main_v3) = _
  after_results; rfl

theorem V_v4 (c : Dev nD) : (V m c main_v4 : S1x1024.Idx → EReal)
    = shapeCast S1x1024 (m ((c : Thread nD τ).loc main_arg6)) shapeCasts_S1024_S1x1024 := by
  show StableHlo.after hostOps0 (fun b => m (c, b)) (Proc.devRef .tc main_v4) = _
  after_results; rfl

theorem V_v5 (c : Dev nD) : (V m c main_v5 : S1024x4096.Idx → EReal) = m ((c : Thread nD τ).loc main_arg3) := by
  show StableHlo.after hostOps0 (fun b => m (c, b)) (Proc.devRef .tc main_v5) = _
  after_results; rfl

theorem V_v6 (c : Dev nD) : (V m c main_v6 : S4096x1024.Idx → EReal) = m ((c : Thread nD τ).loc main_arg5) := by
  show StableHlo.after hostOps0 (fun b => m (c, b)) (Proc.devRef .tc main_v6) = _
  after_results; rfl

/-! ## The two reshapes read at coordinates -/

/-- Row `(b, s)` among the 8192 flattened rows. -/
def flatRow (b : Fin 4) (s : Fin 2048) : Fin 8192 := ⟨b.val * 2048 + s.val, by have := b.isLt; have := s.isLt; omega⟩

theorem flat_apply (x : S4x2048x1024.Idx → EReal) (h : S4x2048x1024.ShapeCasts S8192x1024) (b : Fin 4) (s : Fin 2048)
    (k : Fin 1024) : shapeCast S8192x1024 x h (ix2 (flatRow b s) k) = x (ix3 b s k) :=
  shapeCast_apply x h _ _ (by
    rw [Shape.rowMajor_val_three, Shape.rowMajor_val_two]
    rfl)

theorem unflat_apply (y : S8192x1024.Idx → EReal) (h : S8192x1024.ShapeCasts S4x2048x1024) (b : Fin 4) (s : Fin 2048)
    (d : Fin 1024) : shapeCast S4x2048x1024 y h (ix3 b s d) = y (ix2 (flatRow b s) d) :=
  shapeCast_apply y h _ _ (by
    rw [Shape.rowMajor_val_three, Shape.rowMajor_val_two]
    rfl)

/-! ## The result -/

/-- The program's result as a function of its seven arguments: at `(b, s, d)`, the feed-forward block of row `(b, s)`. -/
def G3 (x0 : S4x2048x1024.Idx → EReal) (x1 x2 : S1024.Idx → EReal) (x3 : S1024x4096.Idx → EReal) (x4 : S4096.Idx → EReal)
    (x5 : S4096x1024.Idx → EReal) (x6 : S1024.Idx → EReal) : S4x2048x1024.Idx → Elt Ideal .f32 := fun i =>
  FFN.ffn (fun k => x0 (ix3 (i 0) (i 1) k)) (fun k => x1 (ix1 k)) (fun k => x2 (ix1 k)) (fun j f => x3 (ix2 j f))
    (fun f => x4 (ix1 f)) (fun f d => x5 (ix2 f d)) (fun d => x6 (ix1 d)) (i 2)

/-- The region's output array split back into batches is that function of the arguments. -/
theorem split_eq (c : Dev nD) :
    shapeCast S4x2048x1024
      (G2 (V m c main_v0) (V m c main_v1) (V m c main_v2) (V m c main_v5) (V m c main_v3) (V m c main_v6) (V m c main_v4))
      shapeCasts_S8192x1024_S4x2048x1024
    = G3 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  funext i
  obtain ⟨b, s, d, rfl⟩ : ∃ (b : Fin 4) (s : Fin 2048) (d : Fin 1024), i = ix3 b s d := ⟨i 0, i 1, i 2, eq_ix3 i⟩
  rw [unflat_apply]
  show FFN.ffn (fun k => V m c main_v0 (ix2 (flatRow b s) k)) (fun k => V m c main_v1 (ix2 (0 : Fin 1) k))
      (fun k => V m c main_v2 (ix2 (0 : Fin 1) k)) (fun j f => V m c main_v5 (ix2 j f))
      (fun f => V m c main_v3 (ix2 (0 : Fin 1) f)) (fun f d => V m c main_v6 (ix2 f d))
      (fun d => V m c main_v4 (ix2 (0 : Fin 1) d)) d = _
  rw [V_v0, V_v1, V_v2, V_v3, V_v4, V_v5, V_v6]
  simp only [shapeCast_a_1a_apply]
  have e0 : (fun k => shapeCast S8192x1024 (m ((c : Thread nD τ).loc main_arg0)) shapeCasts_S4x2048x1024_S8192x1024 (ix2 (flatRow b s) k))
      = fun k => m ((c : Thread nD τ).loc main_arg0) (ix3 b s k) := funext fun k => flat_apply _ _ b s k
  rw [e0]
  rfl

/-- The result buffer after the host's last operation. -/
theorem tail_eq (c : Dev nD) :
    Pipeline.afterTail₀ cfgs (dats m) 0 (V0 m) [hostOps1] c main_v8
      = shapeCast S4x2048x1024 ((dats m 0 c).arrAt 7 cfg0.N) shapeCasts_S8192x1024_S4x2048x1024 := by
  unfold Pipeline.afterTail₀
  show StableHlo.after hostOps1 _ (Proc.devRef .tc main_v8) = _
  after_results
  rw [Pipeline.withArrays_arr spec0 launch0.win.arr_inj c _ _ 7]
  rfl

/-- Every weakly fair execution of the program ends with the result at that function of the arguments, the arguments
    unchanged. -/
theorem run : θ_run defs (onTc (τ := τ) (main (F := Ideal))) ⟨m, fun _ => 0, ρ⟩ fun r => ∀ c : Dev nD,
      r.2.mem ((c : Thread nD τ).loc main_v8)
        = G3 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v8 (Pipeline.mem_restRefs_of main_v8 (by decide) (by decide))).trans
        ((tail_eq m c).trans ((congrArg (fun A => shapeCast S4x2048x1024 A shapeCasts_S8192x1024_S4x2048x1024) (final m c)).trans
          (split_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.Bridge.lean ====
/-
  The two programs compute one function: the reference's result, read entry by entry, is the kernel's.

  The reference's last stage at `(b, s, d)` is the feed-forward block of row `(b, s)` of the input, which is what the
  kernel's program leaves in its result at `(b, s, d)`.
-/
import proofs.«143001_j53987738911461_2_alg».proof.Proof.RefSide
import proofs.«143001_j53987738911461_2_alg».proof.Proof.KernelRun

noncomputable section

namespace Cert.Bridge

open Idealize.ShloMosaic Idealize.ShloMosaic.ValueIdx

/-- The reference's result array is the kernel's function of the same seven arguments. -/
theorem ref_eq (x0 : (⟨Cert.ReferenceIdeal.S4x2048x1024, .f32⟩ : BufTy).Contents (Elt Ideal))
    (x1 x2 : (⟨Cert.ReferenceIdeal.S1024, .f32⟩ : BufTy).Contents (Elt Ideal))
    (x3 : (⟨Cert.ReferenceIdeal.S1024x4096, .f32⟩ : BufTy).Contents (Elt Ideal))
    (x4 : (⟨Cert.ReferenceIdeal.S4096, .f32⟩ : BufTy).Contents (Elt Ideal))
    (x5 : (⟨Cert.ReferenceIdeal.S4096x1024, .f32⟩ : BufTy).Contents (Elt Ideal))
    (x6 : (⟨Cert.ReferenceIdeal.S1024, .f32⟩ : BufTy).Contents (Elt Ideal)) :
    Cert.ReferenceIdeal.Read.val_main_v33 (F := Ideal) x0 x1 x2 x3 x4 x5 x6
      = Cert.KernelIdeal.KValue.G3 x0 x1 x2 x3 x4 x5 x6 := by
  funext i
  obtain ⟨b, s, d, rfl⟩ : ∃ (b : Fin 4) (s : Fin 2048) (d : Fin 1024), i = ix3 b s d := ⟨i 0, i 1, i 2, eq_ix3 i⟩
  exact Cert.ReferenceIdeal.RefValue.result_apply x0 x1 x2 x3 x4 x5 x6 b s d

end Cert.Bridge

end
-- ==== Proof.lean ====
/-
  A feed-forward block (a row normalisation, a hidden layer of 4096 units clipped at zero, an output layer of 1024) computed
  by a kernel over sixteen blocks of 512 flattened rows, against the same block computed on whole arrays.

  On the extended reals the two programs differ in one thing only: the kernel multiplies into the hidden layer, and back
  out of it, in four runs of 1024 hidden units and adds the four products up from zero, where the reference takes one sum
  over all 4096; a sum over 4096 terms is the sum of its four consecutive runs (addition of extended reals is commutative
  and associative, so no finiteness is used).  Everything else is the same operation on both sides: the two sums and
  divisions by 1024 of the normalisation, the reciprocal square root, the scale and shift, the bias and the clip at zero,
  the output bias; the changes of float format are the identity.  The kernel's side is read off its frame run block by
  block (what a point writes back, the blocks tiling the rows, the host's reshapes around the region); the reference's side
  is its run read one operation at a time.  The three frames are the generated ones (the reference's is its run with the
  result dropped), and the idealisation rewrote nothing.
-/
import proofs.«143001_j53987738911461_2_alg».proof.Defs
import proofs.«143001_j53987738911461_2_alg».proof.Proof.Gen.Kernel
import proofs.«143001_j53987738911461_2_alg».proof.Proof.Gen.Kernel.Skeleton
import proofs.«143001_j53987738911461_2_alg».proof.Proof.Gen.Kernel.Launch
import proofs.«143001_j53987738911461_2_alg».proof.Proof.Gen.Kernel.Points
import proofs.«143001_j53987738911461_2_alg».proof.Proof.Gen.Kernel.Frame
import proofs.«143001_j53987738911461_2_alg».proof.Proof.Gen.KernelIdeal
import proofs.«143001_j53987738911461_2_alg».proof.Proof.Gen.KernelIdeal.Skeleton
import proofs.«143001_j53987738911461_2_alg».proof.Proof.Gen.KernelIdeal.Launch
import proofs.«143001_j53987738911461_2_alg».proof.Proof.Gen.KernelIdeal.Points
import proofs.«143001_j53987738911461_2_alg».proof.Proof.Gen.KernelIdeal.Frame
import proofs.«143001_j53987738911461_2_alg».proof.Proof.Gen.ReferenceIdeal
import proofs.«143001_j53987738911461_2_alg».proof.Proof.Gen.ReferenceIdeal.Run
import proofs.«143001_j53987738911461_2_alg».proof.Proof.Gen.ReferenceIdeal.Read
import proofs.«143001_j53987738911461_2_alg».proof.Proof.Gen.Pre_finite_inputs
import proofs.«143001_j53987738911461_2_alg».proof.Proof.Bridge
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the seven arguments both programs end with the result at the feed-forward block of each row
    of the input: the kernel's by its run read block by block, the reference's by its run read operation by operation. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v33_eq _ _ _ _ _ _ _).trans (Cert.Bridge.ref_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
